-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048x2048 .f32) (main_arg5 : FVec F S2048 .f32) (main_arg6 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S4096x2048 .f32) (main_arg1 : FVec F S1x2048 .f32) (main_arg2 : FVec F S1x2048 .f32) (main_arg3 : FVec F S2048x2048 .f32) (main_arg4 : FVec F S2048x2048 .f32) (main_arg5 : FVec F S2048 .f32) (main_arg6 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_v13 main_v16
-- ==== Kernel.lean ====
abbrev S4096x2048 : Shape := ⟨2, ![4096, 2048]⟩
abbrev S1x2048 : Shape := ⟨2, ![1, 2048]⟩
abbrev S2048x2048 : Shape := ⟨2, ![2048, 2048]⟩
abbrev S2048 : Shape := ⟨1, ![2048]⟩
abbrev S256x2048 : Shape := ⟨2, ![256, 2048]⟩
abbrev S_ : Shape := ⟨0, ![]⟩
abbrev S1024x2048 : Shape := ⟨2, ![1024, 2048]⟩

abbrev nBuf : Space → Nat
  | .hbm => 28
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S2048x2048, .bf16⟩
  | .hbm, ⟨8, _⟩ => ⟨S2048x2048, .bf16⟩
  | .hbm, ⟨9, _⟩ => ⟨S4096x2048, .f32⟩
  | .hbm, ⟨10, _⟩ => ⟨S_, .f32⟩
  | .hbm, ⟨11, _⟩ => ⟨S2048, .f32⟩
  | .hbm, ⟨12, _⟩ => ⟨S1x2048, .f32⟩
  | .hbm, ⟨13, _⟩ => ⟨S_, .f32⟩
  | .hbm, ⟨14, _⟩ => ⟨S1x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S2048x2048, .bf16⟩
  | .local _ .vmem, ⟨5, _⟩ => ⟨S2048x2048, .bf16⟩
  | .local _ .vmem, ⟨6, _⟩ => ⟨S256x2048, .f32⟩
  | .local _ .vmem, ⟨7, _⟩ => ⟨S256x2048, .f32⟩
  | .local _ .vmem, ⟨8, _⟩ => ⟨S1024x2048, .f32⟩
  | .local _ .vmem, ⟨9, _⟩ => ⟨S1024x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | .local _ .vmem, ⟨14, _⟩ => ⟨S1024x2048, .f32⟩
  | .local _ .vmem, ⟨15, _⟩ => ⟨S1024x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S1x2048_S1x2048_0_0 : ∀ a, (![0, 0] : Fin 2 → Nat) a + S1x2048.size a ≤ S1x2048.size a
  h_S1x2048 : 0 < S1x2048.numel
  broadcasts_S1x2048_S256x2048 : S1x2048.Broadcasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  reducesTo_S4096x2048_S2048_d0 : S4096x2048.ReducesTo [0] S2048
  h_S_ : 0 < S_.numel
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1x2048_S4096x2048_0_1 : S1x2048.BroadcastsInDim S4096x2048 (![0, 1] : Fin 2 → Fin S4096x2048.rank)
  shapeCasts_S2048_S1x2048 : S2048.ShapeCasts S1x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  shapeCasts_S1x2048_S1x2048 : S1x2048.ShapeCasts S1x2048
  broadcasts_S1x2048_S1024x2048 : S1x2048.Broadcasts S1024x2048
  dot_S256x2048_S2048x2048_S256x2048_1_1_0_0_n_n_wf : DotDims.WF S256x2048 S2048x2048 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S2048x2048.size a
  hwx0_4 : ∀ i : grid0.Coords, EltTy.bits .bf16 = 32 ∨ (Rect.block (s := S2048x2048) S2048x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S4096x2048.size a
  hwx0_5 : ∀ i : grid0.Coords, EltTy.bits .f32 = 32 ∨ (Rect.block (s := S4096x2048) S256x2048.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S4096x2048.size a
  hwx1_0 : ∀ i : grid1.Coords, EltTy.bits .f32 = 32 ∨ (Rect.block (s := S4096x2048) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x2048.size a
  hwx1_1 : ∀ i : grid1.Coords, EltTy.bits .f32 = 32 ∨ (Rect.block (s := S1x2048) S1x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x2048.size a
  hwx1_4 : ∀ i : grid1.Coords, EltTy.bits .f32 = 32 ∨ (Rect.block (s := S1x2048) S1x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x2048.size a ≤ S4096x2048.size a
  hwx1_5 : ∀ i : grid1.Coords, EltTy.bits .f32 = 32 ∨ (Rect.block (s := S4096x2048) S1024x2048.size (cc1_transform_5 i) (hinb1_5 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2048x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v2) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S1024x2048.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4096x2048 : Shape := ⟨2, ![4096, 2048]⟩
abbrev S1x2048 : Shape := ⟨2, ![1, 2048]⟩
abbrev S2048x2048 : Shape := ⟨2, ![2048, 2048]⟩
abbrev S2048 : Shape := ⟨1, ![2048]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S1x2048, .f32⟩
  | .hbm, ⟨11, _⟩ => ⟨S1x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S1x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S2048, .f32⟩
  | .hbm, ⟨44, _⟩ => ⟨S_, .f32⟩
  | .hbm, ⟨45, _⟩ => ⟨S2048, .f32⟩
  | .hbm, ⟨46, _⟩ => ⟨S2048, .f32⟩
  | .hbm, ⟨47, _⟩ => ⟨S1x2048, .f32⟩
  | .hbm, ⟨48, _⟩ => ⟨S4096x2048, .f32⟩
  | .hbm, ⟨49, _⟩ => ⟨S4096x2048, .f32⟩
  | .hbm, ⟨50, _⟩ => ⟨S1x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S2048, .f32⟩
  | .hbm, ⟨55, _⟩ => ⟨S2048, .f32⟩
  | .hbm, ⟨56, _⟩ => ⟨S2048, .f32⟩
  | .hbm, ⟨57, _⟩ => ⟨S1x2048, .f32⟩
  | .hbm, ⟨58, _⟩ => ⟨S4096x2048, .f32⟩
  | .hbm, ⟨59, _⟩ => ⟨S4096x2048, .f32⟩
  | .hbm, ⟨60, _⟩ => ⟨S1x2048, .f32⟩
  | .hbm, ⟨61, _⟩ => ⟨S4096x2048, .f32⟩
  | .hbm, ⟨62, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]

class Facts₀ : Prop where
  bcast_S1x2048_S4096x2048_0_1 : S1x2048.BroadcastsInDim S4096x2048 (![0, 1] : Fin 2 → Fin S4096x2048.rank)
  bcast_S_S1x2048 : S_.BroadcastsInDim S1x2048 (![] : Fin 0 → Fin S1x2048.rank)
  bcast_S_S4096x2048 : S_.BroadcastsInDim S4096x2048 (![] : Fin 0 → Fin S4096x2048.rank)
  reducesTo_S4096x2048_S2048_d0 : S4096x2048.ReducesTo [0] S2048
  h_S_ : 0 < S_.numel
  bcast_S_S2048 : S_.BroadcastsInDim S2048 (![] : Fin 0 → Fin S2048.rank)
  bcast_S2048_S1x2048_1 : S2048.BroadcastsInDim S1x2048 (![1] : Fin 1 → Fin S1x2048.rank)
  dot_S4096x2048_S2048x2048_S4096x2048_1_1_0_0_n_n_wf : DotDims.WF S4096x2048 S2048x2048 S4096x2048 [1] [1] [0] [0] [] []

variable [Facts₀]

def dot_S4096x2048_S2048x2048_S4096x2048_1_1_0_0_n_n : DotDims S4096x2048 S2048x2048 S4096x2048 where
  lhsContracting := [1]
  rhsContracting := [1]
  lhsNonContracting := [0]
  rhsNonContracting := [0]
  lhsBatch := []
  rhsBatch := []
  wf := dot_S4096x2048_S2048x2048_S4096x2048_1_1_0_0_n_n_wf

class Facts : Prop extends Facts₀ where

variable [Facts]
-- ==== Proof.KRun.lean ====
/-
  The blockwise program's run with its result named. The program is two gridded regions, each entered after a
  stretch of whole-array operations; the buffer contents at the last boundary are the fold `W4` of the launch memory
  through the stretches and the regions' write-backs. Every weakly fair execution terminates with every unscoped
  buffer at those contents: in particular the result buffer, and each argument as launched.
-/
import proofs.«149569_j44684839747976_1_alg».proof.Proof.Gen.KernelIdeal.Frame

set_option maxRecDepth 16384

noncomputable section

namespace Cert.WaveNorm.Kern

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v16) = W4 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v16 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.WaveNorm.Kern

end
-- ==== Proof.LibDotRows.lean ====
/-
  A matrix product against the rows of the right operand, read at a row and a column. For dimension numbers that
  contract the second axis of BOTH operands and batch nothing (an M x K array times the transpose of an N x K
  array) — stated by the four coordinate facts of the operand indices — the contraction at (r, c) is the finite sum
  over k of left (r, k) * right (c, k). A matrix-unit product into the zero accumulator is that sum at the extended
  reals, whatever formats the operands were rounded to on the way.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.ValueIdx

open Idealize.ShloMosaic

/-- The facts that say a dot's dimension numbers are those of an M x K array times the transpose of an N x K one. -/
structure RowsDot {M K N : ℕ} (d : DotDims (⟨2, ![M, K]⟩ : Shape) (⟨2, ![N, K]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (j 1).val
  r1 : ∀ (j : (⟨2, ![M, N]⟩ : Shape).Idx) (q : d.contr.Idx), (d.rhsIdx j q 1).val = (q ⟨0, by omega⟩).val

/-- The contraction against the right operand's rows at (r, c), re-indexed by the inner position k. -/
theorem contraction_rows_ix2 {M K N : ℕ} {d : DotDims (⟨2, ![M, K]⟩ : Shape) (⟨2, ![N, K]⟩ : Shape) (⟨2, ![M, N]⟩ : Shape)}
    (hd : RowsDot d) (lhs : (⟨2, ![M, K]⟩ : Shape).Idx → EReal) (rhs : (⟨2, ![N, K]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 c k) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 c k := funext fun a => Fin.ext (by
    match a with
    | ⟨0, _⟩ => exact hd.r0 _ _
    | ⟨1, _⟩ => exact (hd.r1 _ _).trans hk)
  rw [el, er]

/-- A matrix-unit product of an M x K array with the rows of an N x K array into zeros, at (r, c): the sum over the
    K inner positions. -/
theorem matmul_zero_rows_ix2 {M K N : ℕ} {φ₁ φ₂ : FTy} {d : DotDims (⟨2, ![M, K]⟩ : Shape) (⟨2, ![N, K]⟩ : Shape) (⟨2, ![M, N]⟩ : Shape)}
    (hd : RowsDot d) (prec : Option ContractPrecision)
    (lhs : FVec Ideal (⟨2, ![M, K]⟩ : Shape) φ₁) (rhs : FVec Ideal (⟨2, ![N, K]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 c k) : EReal) := by
  rw [Ideal.matmul_constant_zero_apply]
  exact contraction_rows_ix2 hd lhs rhs r c

/-- A dense layer against the rows of the weights: the product into zeros plus a bias vector recast as one row and
    broadcast down the rows, at (p, q), is the sum over the inner position plus the bias at q. -/
theorem dense_rows_ix2 {M K N : ℕ} {φ₁ φ₂ : FTy} {d : DotDims (⟨2, ![M, K]⟩ : Shape) (⟨2, ![N, K]⟩ : Shape) (⟨2, ![M, N]⟩ : Shape)}
    (hd : RowsDot d) (prec : Option ContractPrecision)
    (x : FVec Ideal (⟨2, ![M, K]⟩ : Shape) φ₁) (w : FVec Ideal (⟨2, ![N, K]⟩ : Shape) φ₂) (b : FVec Ideal (⟨1, ![N]⟩ : Shape) .f32)
    (h1 : (⟨1, ![N]⟩ : Shape).ShapeCasts ⟨2, ![1, N]⟩) (h2 : (⟨2, ![1, N]⟩ : Shape).Broadcasts ⟨2, ![M, N]⟩) (p : Fin M) (q : Fin N) :
    addf (matmul d prec x w (constant (⟨2, ![M, N]⟩ : Shape) .f32 0x00000000#32))
        (broadcastTo (⟨2, ![M, N]⟩ : Shape) (shapeCast (⟨2, ![1, N]⟩ : Shape) b h1) h2) (ix2 p q)
      = (∑ k : Fin K, (x (ix2 p k) : EReal) * (w (ix2 q k) : EReal)) + (b (ix1 q) : EReal) := by
  show FloatOps.matmul d prec x w (constant (⟨2, ![M, N]⟩ : Shape) .f32 0x00000000#32) (ix2 p q)
      + broadcastTo (⟨2, ![M, N]⟩ : Shape) (shapeCast (⟨2, ![1, N]⟩ : Shape) b h1) h2 (ix2 p q) = _
  rw [broadcastTo_1b_ab_apply, shapeCast_a_1a_apply, matmul_zero_rows_ix2 hd]

end Idealize.ShloMosaic.ValueIdx

end
-- ==== Proof.Spec.lean ====
/-
  The function both programs compute, entry by entry, on the extended reals.

  For a batch row b and an output feature o, with u(b,i) = (x(b,i) − t(i)) / max(s(i), 1e-3):
    y(b,o) = Σ_i c·cos(3·u(b,i))·exp(−½·u(b,i)·u(b,i)) · W(o,i)  +  0.3 · Σ_i x(b,i) · B(o,i),
  then the batch statistics of column o,
    mean(o) = (0 + Σ_b y(b,o)) / 4096,   var(o) = (0 + Σ_b (y(b,o) − mean(o))²) / 4096,
  and the result  out(b,o) = γ(o) · (y(b,o) − mean(o)) · rsqrt(var(o) + ε) + β(o).
  The float literals stay as the binary words the programs spell (the same words on both sides).
-/
import Idealize.ShloMosaic.PureOps.Ideal
import Idealize.ShloMosaic.Lib.ValueIdx

noncomputable section

open scoped BigOperators

namespace Cert.WaveNorm

open Idealize.ShloMosaic Idealize.ShloMosaic.ValueIdx

/-- An n × k array of extended reals. -/
abbrev Mat (n k : ℕ) := (⟨2, ![n, k]⟩ : Shape).Idx → EReal
/-- A vector of n extended reals. -/
abbrev Vc (n : ℕ) := (⟨1, ![n]⟩ : Shape).Idx → EReal

/-- u = (x − t) / max(s, 1e-3). -/
def unitArg (xv sv tv : EReal) : EReal :=
  Ideal.div (xv - tv) (max sv (Ideal.ofBits .f32 0x3A83126F#32))

/-- c · cos(3u) · exp((−½·u)·u), in the order both programs multiply. -/
def wavelet (xv sv tv : EReal) : EReal :=
  Ideal.ofBits .f32 0x3F4049C4#32 * Ideal.cos (Ideal.ofBits .f32 0x40400000#32 * unitArg xv sv tv)
    * Ideal.exp (Ideal.ofBits .f32 0xBF000000#32 * unitArg xv sv tv * unitArg xv sv tv)

/-- One entry of y from one row of x, the scale and shift rows, and one row of each weight matrix. -/
def mixed {K : ℕ} (xr sr tr wr br : Fin K → EReal) : EReal :=
  (∑ k, wavelet (xr k) (sr k) (tr k) * wr k) + Ideal.ofBits .f32 0x3E99999A#32 * ∑ k, xr k * br k

/-- `mixed` depends on its five rows entry by entry. -/
theorem mixed_congr {K : ℕ} {xr xr' sr sr' tr tr' wr wr' br br' : Fin K → EReal}
    (hx : ∀ k, xr k = xr' k) (hs : ∀ k, sr k = sr' k) (ht : ∀ k, tr k = tr' k)
    (hw : ∀ k, wr k = wr' k) (hb : ∀ k, br k = br' k) :
    mixed xr sr tr wr br = mixed xr' sr' tr' wr' br' := by
  obtain rfl : xr = xr' := funext hx
  obtain rfl : sr = sr' := funext hs
  obtain rfl : tr = tr' := funext ht
  obtain rfl : wr = wr' := funext hw
  obtain rfl : br = br' := funext hb
  rfl

/-- A column's mean as the programs take it: the sum started from the zero word, divided by 4096. -/
def colMean {n : ℕ} (col : Fin n → EReal) : EReal :=
  Ideal.div (Ideal.ofBits .f32 0x00000000#32 + ∑ r, col r) (Ideal.ofBits .f32 0x45800000#32)

/-- A column's biased variance: the mean of the squared deviations from the column's mean. -/
def colVar {n : ℕ} (col : Fin n → EReal) : EReal :=
  Ideal.div (Ideal.ofBits .f32 0x00000000#32 + ∑ r, (col r - colMean col) * (col r - colMean col))
    (Ideal.ofBits .f32 0x45800000#32)

/-- γ · (y − mean) · rsqrt(var + ε) + β. -/
def normed (g y mu var be : EReal) : EReal :=
  g * (y - mu) * Ideal.rsqrt (var + Ideal.ofBits .f32 0x3727C5AC#32) + be

/-- y(b,o). -/
def yEntry (x : Mat 4096 2048) (s t : Mat 1 2048) (W B : Mat 2048 2048) (b : Fin 4096) (o : Fin 2048) : EReal :=
  mixed (fun k => x (ix2 b k)) (fun k => s (ix2 (0 : Fin 1) k)) (fun k => t (ix2 (0 : Fin 1) k))
    (fun k => W (ix2 o k)) (fun k => B (ix2 o k))

/-- The whole array y. -/
def yArr (x : Mat 4096 2048) (s t : Mat 1 2048) (W B : Mat 2048 2048) : Mat 4096 2048 :=
  fun j => yEntry x s t W B (j 0) (j 1)

/-- The mean of column o of an array. -/
def meanOf (Y : Mat 4096 2048) (o : Fin 2048) : EReal := colMean fun r : Fin 4096 => Y (ix2 r o)
/-- The variance of column o of an array. -/
def varOf (Y : Mat 4096 2048) (o : Fin 2048) : EReal := colVar fun r : Fin 4096 => Y (ix2 r o)

/-- The batch-normalised array of any array Y. -/
def normArr (Y : Mat 4096 2048) (g be : Vc 2048) : Mat 4096 2048 :=
  fun j => normed (g (ix1 (j 1))) (Y j) (meanOf Y (j 1)) (varOf Y (j 1)) (be (ix1 (j 1)))

/-- The result array. -/
def outArr (x : Mat 4096 2048) (s t : Mat 1 2048) (W B : Mat 2048 2048) (g be : Vc 2048) : Mat 4096 2048 :=
  normArr (yArr x s t W B) g be

theorem yArr_ix2 (x : Mat 4096 2048) (s t : Mat 1 2048) (W B : Mat 2048 2048) (b : Fin 4096) (o : Fin 2048) :
    yArr x s t W B (ix2 b o) = yEntry x s t W B b o := rfl

theorem normArr_ix2 (Y : Mat 4096 2048) (g be : Vc 2048) (b : Fin 4096) (o : Fin 2048) :
    normArr Y g be (ix2 b o) = normed (g (ix1 o)) (Y (ix2 b o)) (meanOf Y o) (varOf Y o) (be (ix1 o)) := rfl

end Cert.WaveNorm

end
-- ==== Proof.Body0.lean ====
/-
  The first kernel's body on one block of 256 batch rows, read at a row p of the block and an output feature q:
  the wavelet of the block's entry (p,k) against the scale and shift rows, rounded (the identity on the extended
  reals), contracted over k against row q of the first weight matrix, plus 0.3 times the block's row p contracted
  against row q of the second: one entry of y, as the specification's `mixed` of those rows.
-/
import proofs.«149569_j44684839747976_1_alg».proof.Proof.Gen.KernelIdeal.Skeleton
import proofs.«149569_j44684839747976_1_alg».proof.Proof.LibDotRows
import proofs.«149569_j44684839747976_1_alg».proof.Proof.Spec

noncomputable section

open scoped BigOperators

namespace Cert.WaveNorm.Kern

open Cert.KernelIdeal Cert.KernelIdeal.Gen Cert.WaveNorm
open Idealize.ShloMosaic Idealize.ShloMosaic.ValueIdx

/-- The body's dimension numbers. -/
abbrev D0 : DotDims S256x2048 S2048x2048 S256x2048 := dot_S256x2048_S2048x2048_S256x2048_1_1_0_0_n_n

/-- They contract the second axis of both operands and batch nothing. -/
theorem rows_dot : RowsDot (M := 256) (K := 2048) (N := 2048) D0 where
  rank := rfl
  size := rfl
  l0 := fun j q => by
    unfold DotDims.lhsIdx
    rw [dif_neg (show ¬(0 : Fin S256x2048.rank) ∈ D0.lhsBatch by decide),
      dif_pos (show (0 : Fin S256x2048.rank) ∈ D0.lhsNonContracting by decide)]
    rfl
  l1 := fun j q => D0.lhsIdx_val_of_single rfl j q
  r0 := fun j q => by
    unfold DotDims.rhsIdx
    rw [dif_neg (show ¬(0 : Fin S2048x2048.rank) ∈ D0.rhsBatch by decide),
      dif_pos (show (0 : Fin S2048x2048.rank) ∈ D0.rhsNonContracting by decide)]
    rfl
  r1 := fun j q => D0.rhsIdx_val_of_single rfl j q

/-- The wavelet of a block, as the body computes it before rounding. -/
def waveBlock (v0 : FVec Ideal S256x2048 .f32) (v1 v4 : FVec Ideal S1x2048 .f32) : FVec Ideal S256x2048 .f32 :=
  mulf
    (mulf (broadcast S256x2048 (Scalar.ofBits (F := Ideal) .f32 0x3F4049C4#32))
      (cos (mulf (broadcast S256x2048 (Scalar.ofBits (F := Ideal) .f32 0x40400000#32))
        (divf (subf v0 (broadcastTo S256x2048 v4 broadcasts_S1x2048_S256x2048))
          (broadcastTo S256x2048 (maximumf v1 (broadcast S1x2048 (Scalar.ofBits (F := Ideal) .f32 0x3A83126F#32))) broadcasts_S1x2048_S256x2048)))))
    (exp (mulf
      (mulf (broadcast S256x2048 (Scalar.ofBits (F := Ideal) .f32 0xBF000000#32))
        (divf (subf v0 (broadcastTo S256x2048 v4 broadcasts_S1x2048_S256x2048))
          (broadcastTo S256x2048 (maximumf v1 (broadcast S1x2048 (Scalar.ofBits (F := Ideal) .f32 0x3A83126F#32))) broadcasts_S1x2048_S256x2048)))
      (divf (subf v0 (broadcastTo S256x2048 v4 broadcasts_S1x2048_S256x2048))
        (broadcastTo S256x2048 (maximumf v1 (broadcast S1x2048 (Scalar.ofBits (F := Ideal) .f32 0x3A83126F#32))) broadcasts_S1x2048_S256x2048))))

/-- The block's wavelet at (p,k) is the scalar wavelet of x(p,k), s(0,k), t(0,k). -/
theorem waveBlock_at (v0 : FVec Ideal S256x2048 .f32) (v1 v4 : FVec Ideal S1x2048 .f32) (p : Fin 256) (k : Fin 2048) :
    waveBlock v0 v1 v4 (ix2 p k) = wavelet (v0 (ix2 p k)) (v1 (ix2 (0 : Fin 1) k)) (v4 (ix2 (0 : Fin 1) k)) := by
  have e4 : broadcastTo S256x2048 v4 broadcasts_S1x2048_S256x2048 (ix2 p k) = v4 (ix2 (0 : Fin 1) k) :=
    broadcastTo_1b_ab_apply v4 broadcasts_S1x2048_S256x2048 p k
  have e1 : broadcastTo S256x2048 (maximumf v1 (broadcast S1x2048 (Scalar.ofBits (F := Ideal) .f32 0x3A83126F#32))) broadcasts_S1x2048_S256x2048 (ix2 p k)
      = (maximumf v1 (broadcast S1x2048 (Scalar.ofBits (F := Ideal) .f32 0x3A83126F#32))) (ix2 (0 : Fin 1) k) :=
    broadcastTo_1b_ab_apply _ broadcasts_S1x2048_S256x2048 p k
  have hu : divf (subf v0 (broadcastTo S256x2048 v4 broadcasts_S1x2048_S256x2048))
        (broadcastTo S256x2048 (maximumf v1 (broadcast S1x2048 (Scalar.ofBits (F := Ideal) .f32 0x3A83126F#32))) broadcasts_S1x2048_S256x2048) (ix2 p k)
      = unitArg (v0 (ix2 p k)) (v1 (ix2 (0 : Fin 1) k)) (v4 (ix2 (0 : Fin 1) k)) := by
    show Ideal.div (v0 (ix2 p k) - broadcastTo S256x2048 v4 broadcasts_S1x2048_S256x2048 (ix2 p k))
        (broadcastTo S256x2048 (maximumf v1 (broadcast S1x2048 (Scalar.ofBits (F := Ideal) .f32 0x3A83126F#32))) broadcasts_S1x2048_S256x2048 (ix2 p k)) = _
    rw [e4, e1]
    rfl
  show Ideal.ofBits .f32 0x3F4049C4#32 * Ideal.cos (Ideal.ofBits .f32 0x40400000#32 * _) * Ideal.exp (Ideal.ofBits .f32 0xBF000000#32 * _ * _) = _
  rw [hu]
  rfl

/-- The body's stored value IS the two matrix-unit products of the rounded wavelet and the rounded block. -/
theorem pay0_eq (v0 : FVec Ideal S256x2048 .f32) (v1 v4 : FVec Ideal S1x2048 .f32) (v21 v24 : FVec Ideal S2048x2048 .bf16) :
    k0_pay1 (F := Ideal) v0 v1 v4 v21 v24
      = addf (matmul D0 none (truncf .bf16 (waveBlock v0 v1 v4) bitsLt_bf16_f32) (shapeCast S2048x2048 v21 shapeCasts_S2048x2048_S2048x2048) (constant S256x2048 .f32 0x00000000#32))
          (mulf (broadcast S256x2048 (Scalar.ofBits (F := Ideal) .f32 0x3E99999A#32))
            (matmul D0 none (truncf .bf16 v0 bitsLt_bf16_f32) (shapeCast S2048x2048 v24 shapeCasts_S2048x2048_S2048x2048) (constant S256x2048 .f32 0x00000000#32))) := rfl

/-- One entry of the body's stored value. -/
theorem pay0_at (v0 : FVec Ideal S256x2048 .f32) (v1 v4 : FVec Ideal S1x2048 .f32) (v21 v24 : FVec Ideal S2048x2048 .bf16)
    (p : Fin 256) (q : Fin 2048) :
    k0_pay1 (F := Ideal) v0 v1 v4 v21 v24 (ix2 p q)
      = mixed (fun k => v0 (ix2 p k)) (fun k => v1 (ix2 (0 : Fin 1) k)) (fun k => v4 (ix2 (0 : Fin 1) k))
          (fun k => v21 (ix2 q k)) (fun k => v24 (ix2 q k)) := by
  rw [pay0_eq]
  show FloatOps.matmul D0 none (truncf .bf16 (waveBlock v0 v1 v4) bitsLt_bf16_f32) (shapeCast S2048x2048 v21 shapeCasts_S2048x2048_S2048x2048) (constant S256x2048 .f32 0x00000000#32) (ix2 p q)
      + Ideal.ofBits .f32 0x3E99999A#32 * FloatOps.matmul D0 none (truncf .bf16 v0 bitsLt_bf16_f32) (shapeCast S2048x2048 v24 shapeCasts_S2048x2048_S2048x2048) (constant S256x2048 .f32 0x00000000#32) (ix2 p q) = _
  rw [matmul_zero_rows_ix2 rows_dot, matmul_zero_rows_ix2 rows_dot, shapeCast_self, shapeCast_self]
  unfold mixed
  refine congrArg₂ (· + ·) (Finset.sum_congr rfl fun k _ => ?_) rfl
  exact congrArg (· * _) (waveBlock_at v0 v1 v4 p k)

/-- The same at any index of the block. -/
theorem pay0_idx (v0 : FVec Ideal S256x2048 .f32) (v1 v4 : FVec Ideal S1x2048 .f32) (v21 v24 : FVec Ideal S2048x2048 .bf16)
    (y : S256x2048.Idx) :
    k0_pay1 (F := Ideal) v0 v1 v4 v21 v24 y
      = mixed (fun k => v0 (ix2 (y 0) k)) (fun k => v1 (ix2 (0 : Fin 1) k)) (fun k => v4 (ix2 (0 : Fin 1) k))
          (fun k => v21 (ix2 (y 1) k)) (fun k => v24 (ix2 (y 1) k)) := by
  obtain ⟨p, q, rfl⟩ : ∃ (p : Fin 256) (q : Fin 2048), y = ix2 p q := ⟨y 0, y 1, eq_ix2 y⟩
  exact pay0_at v0 v1 v4 v21 v24 p q

end Cert.WaveNorm.Kern

end
-- ==== Proof.Region0.lean ====
/-
  The first region, from the arrays it finds on entry. Its grid has 16 points; point t stages rows 256·t … 256·t+255
  of x, the whole scale and shift rows and the two whole weight matrices, and writes back rows 256·t … 256·t+255 of the
  result. What point t writes back is block t of ONE array — y of the entry arrays — and the 16 blocks cover the
  result, so after the region the result array is y of the entry arrays.
-/
import proofs.«149569_j44684839747976_1_alg».proof.Proof.Gen.KernelIdeal.Frame
import proofs.«149569_j44684839747976_1_alg».proof.Proof.Body0
import Idealize.ShloMosaic.Lib.Pipeline.Value

set_option maxRecDepth 16384

noncomputable section

namespace Cert.WaveNorm.Kern

open Cert.KernelIdeal Cert.KernelIdeal.Gen Cert.WaveNorm
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the 16 grid points: x and the result move with the point along the rows; the other four
    windows stay at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The array the region leaves in its result: y of the arrays it finds. -/
def Y0 (c : Dev nD) : S4096x2048.Idx → EReal :=
  yArr (V c main_arg0 : S4096x2048.Idx → EReal) (V c main_arg1 : S1x2048.Idx → EReal) (V c main_arg2 : S1x2048.Idx → EReal)
    (V c main_v0 : S2048x2048.Idx → EReal) (V c main_v1 : S2048x2048.Idx → EReal)

/-- The block of x at point t is rows 256·t … of x. -/
theorem blk0_x (c : Dev nD) (t : Fin cfg0.N) (y : S256x2048.Idx) (i : S4096x2048.Idx)
    (h0 : (i 0).val = 256 * t.val + (y 0).val) (h1 : (i 1).val = (y 1).val) :
    (iblk0 V c 0 t : Vec Ideal S256x2048 .f32) y = (V c main_arg0 : S4096x2048.Idx → EReal) i := by
  obtain ⟨e0, e1, -⟩ := idx_facts0 t
  unfold iblk0
  rw [View.read_apply]
  show V c main_arg0 _ = V c main_arg0 _
  refine congrArg (V c main_arg0) ?_
  funext a
  apply Fin.ext
  match a with
  | ⟨0, _⟩ => show win0_0.index t 0 * 256 + 1 * (y 0).val = (i 0).val; rw [e0, h0]; omega
  | ⟨1, _⟩ => show win0_0.index t 1 * 2048 + 1 * (y 1).val = (i 1).val; rw [e1, h1]; omega

/-- The scale row's block is the whole row. -/
theorem blk0_s (c : Dev nD) (t : Fin cfg0.N) :
    (iblk0 V c 1 t : Vec Ideal S1x2048 .f32) = (V c main_arg1 : S1x2048.Idx → EReal) := by
  obtain ⟨-, -, e0, e1, -⟩ := idx_facts0 t
  funext y
  unfold iblk0
  rw [View.read_apply]
  show V c main_arg1 _ = V c main_arg1 y
  refine congrArg (V c main_arg1) ?_
  funext a
  apply Fin.ext
  match a with
  | ⟨0, _⟩ => show win0_1.index t 0 * 1 + 1 * (y 0).val = (y 0).val; rw [e0]; omega
  | ⟨1, _⟩ => show win0_1.index t 1 * 2048 + 1 * (y 1).val = (y 1).val; rw [e1]; omega

/-- The shift row's block is the whole row. -/
theorem blk0_t (c : Dev nD) (t : Fin cfg0.N) :
    (iblk0 V c 2 t : Vec Ideal S1x2048 .f32) = (V c main_arg2 : S1x2048.Idx → EReal) := by
  obtain ⟨-, -, -, -, e0, e1, -⟩ := idx_facts0 t
  funext y
  unfold iblk0
  rw [View.read_apply]
  show V c main_arg2 _ = V c main_arg2 y
  refine congrArg (V c main_arg2) ?_
  funext a
  apply Fin.ext
  match a with
  | ⟨0, _⟩ => show win0_2.index t 0 * 1 + 1 * (y 0).val = (y 0).val; rw [e0]; omega
  | ⟨1, _⟩ => show win0_2.index t 1 * 2048 + 1 * (y 1).val = (y 1).val; rw [e1]; omega

/-- The first weight matrix's block is the whole matrix. -/
theorem blk0_w (c : Dev nD) (t : Fin cfg0.N) :
    (iblk0 V c 3 t : Vec Ideal S2048x2048 .bf16) = (V c main_v0 : S2048x2048.Idx → EReal) := by
  obtain ⟨-, -, -, -, -, -, e0, e1, -⟩ := idx_facts0 t
  funext y
  unfold iblk0
  rw [View.read_apply]
  show V c main_v0 _ = V c main_v0 y
  refine congrArg (V c main_v0) ?_
  funext a
  apply Fin.ext
  match a with
  | ⟨0, _⟩ => show win0_3.index t 0 * 2048 + 1 * (y 0).val = (y 0).val; rw [e0]; omega
  | ⟨1, _⟩ => show win0_3.index t 1 * 2048 + 1 * (y 1).val = (y 1).val; rw [e1]; omega

/-- The second weight matrix's block is the whole matrix. -/
theorem blk0_b (c : Dev nD) (t : Fin cfg0.N) :
    (iblk0 V c 4 t : Vec Ideal S2048x2048 .bf16) = (V c main_v1 : S2048x2048.Idx → EReal) := by
  obtain ⟨-, -, -, -, -, -, -, -, e0, e1, -⟩ := idx_facts0 t
  funext y
  unfold iblk0
  rw [View.read_apply]
  show V c main_v1 _ = V c main_v1 y
  refine congrArg (V c main_v1) ?_
  funext a
  apply Fin.ext
  match a with
  | ⟨0, _⟩ => show win0_4.index t 0 * 2048 + 1 * (y 0).val = (y 0).val; rw [e0]; omega
  | ⟨1, _⟩ => show win0_4.index t 1 * 2048 + 1 * (y 1).val = (y 1).val; rw [e1]; omega

/-- What point t writes back is block t of y of the entry arrays. -/
theorem flushed0_eq (c : Dev nD) (t : Fin cfg0.N) :
    (dat0 V c).flushed 5 t = ((cfg0.win 5).blk t).view.read (Elt Ideal) (Y0 V c) := by
  obtain ⟨-, -, -, -, -, -, -, -, -, -, e0, e1⟩ := idx_facts0 t
  show (cfg0.win 5).cut (grid0.coords t) ((dat0 V c).after 5 t) = _
  rw [after0_5]
  unfold out0_5
  rw [View.canon_unit_zero hz]
  simp only [View.ld_unit_zero (S := S256x2048) hz, View.ld_unit_zero (S := S1x2048) hz, View.ld_unit_zero (S := S2048x2048) hz]
  rw [blk0_s V c t, blk0_t V c t, blk0_w V c t, blk0_b V c t]
  funext j
  rw [View.read_apply]
  show k0_pay1 (F := Ideal) (iblk0 V c 0 t) (V c main_arg1) (V c main_arg2) (V c main_v0) (V c main_v1) j
      = Y0 V c (((cfg0.win 5).blk t).view.emb j)
  refine (pay0_idx (iblk0 V c 0 t) (V c main_arg1) (V c main_arg2) (V c main_v0) (V c main_v1) j).trans ?_
  have hq : (((cfg0.win 5).blk t).view.emb j) 1 = j 1 :=
    Fin.ext (by show win0_5.index t 1 * 2048 + 1 * (j 1).val = (j 1).val; rw [e1]; omega)
  refine mixed_congr (fun k => ?_) (fun k => rfl) (fun k => rfl) (fun k => ?_) (fun k => ?_)
  · exact blk0_x V c t _ _
      (by show win0_5.index t 0 * 256 + 1 * (j 0).val = 256 * t.val + (j 0).val; rw [e0]; omega) rfl
  · exact congrArg (fun q => (V c main_v0 : S2048x2048.Idx → EReal) (ix2 q k)) hq.symm
  · exact congrArg (fun q => (V c main_v1 : S2048x2048.Idx → EReal) (ix2 q k)) hq.symm

/-- An index of the result is in point t's block iff each coordinate is in the block's range on its axis. -/
theorem mem_blk0 (t : Fin cfg0.N) (i : S4096x2048.Idx) :
    i ∈ ((cfg0.win 5).blk t).view.set ↔ ∀ a : Fin 2, win0_5.index t a * S256x2048.size a ≤ (i a).val
      ∧ (i a).val < win0_5.index t a * S256x2048.size a + S256x2048.size a := by
  show i ∈ ((View.whole main_v2).slice (win0_5.rect t)).set ↔ _
  rw [View.set_slice_whole, Rect.mem_set_unit]
  exact Iff.rfl

/-- Every index of the result lies in the block of the point its row falls in. -/
theorem cover0 (i : S4096x2048.Idx) :
    ∃ t : Fin cfg0.N, (cfg0.win 5).flush t = true ∧ i ∈ ((cfg0.win 5).blk t).view.set := by
  have hi0 : (i 0).val < 4096 := (i 0).isLt
  have hi1 : (i 1).val < 2048 := (i 1).isLt
  have hN : cfg0.N = 16 := N_0
  let t : Fin cfg0.N := ⟨(i 0).val / 256, by rw [hN]; omega⟩
  have ht : t.val = (i 0).val / 256 := rfl
  obtain ⟨-, -, -, -, -, -, -, -, -, -, e0, e1⟩ := idx_facts0 t
  refine ⟨t, flush0_5 t, ?_⟩
  rw [mem_blk0]
  intro a
  match a with
  | ⟨0, _⟩ =>
    show win0_5.index t (0 : Fin 2) * 256 ≤ (i 0).val ∧ (i 0).val < win0_5.index t (0 : Fin 2) * 256 + 256
    rw [e0, ht]; omega
  | ⟨1, _⟩ =>
    show win0_5.index t (1 : Fin 2) * 2048 ≤ (i 1).val ∧ (i 1).val < win0_5.index t (1 : Fin 2) * 2048 + 2048
    rw [e1]; omega

/-- After the region its result array is y of the entry arrays. -/
theorem final0 (c : Dev nD) : (dat0 V c).arrAt 5 cfg0.N = Y0 V c :=
  (dat0 V c).arrAt_eq_of_cover 5 (Y0 V c) (fun t _ => flushed0_eq V c t) (cover0)

end Cert.WaveNorm.Kern

end
-- ==== Proof.Body1.lean ====
/-
  The second kernel's body on one block of 1024 batch rows, read at a row p of the block and a feature q:
  γ(q) · (y(p,q) − mean(q)) · rsqrt(var(q) + ε) + β(q), the four rows read at column q.
-/
import proofs.«149569_j44684839747976_1_alg».proof.Proof.Gen.KernelIdeal.Skeleton
import proofs.«149569_j44684839747976_1_alg».proof.Proof.Spec
import Idealize.ShloMosaic.Lib.ValueLayout
import Idealize.ShloMosaic.Lib.Pipeline.Value

noncomputable section

namespace Cert.WaveNorm.Kern

open Cert.KernelIdeal Cert.KernelIdeal.Gen Cert.WaveNorm
open Idealize.ShloMosaic Idealize.ShloMosaic.ValueIdx

/-- One entry of the normalising body's stored value. -/
theorem pay1_at (v0 : Vec Ideal S1024x2048 .f32) (v2 v4 v6 v8 : Vec Ideal S1x2048 .f32) (p : Fin 1024) (q : Fin 2048) :
    k1_pay1 (F := Ideal) v0 v2 v4 v6 v8 (ix2 p q)
      = normed (v6 (ix2 (0 : Fin 1) q)) (v0 (ix2 p q)) (v2 (ix2 (0 : Fin 1) q)) (v4 (ix2 (0 : Fin 1) q)) (v8 (ix2 (0 : Fin 1) q)) := by
  have c0 : shapeCast S1024x2048 v0 shapeCasts_S1024x2048_S1024x2048 = v0 := shapeCast_self _ _
  have c2 : shapeCast S1x2048 v2 shapeCasts_S1x2048_S1x2048 = v2 := shapeCast_self _ _
  have c4 : shapeCast S1x2048 v4 shapeCasts_S1x2048_S1x2048 = v4 := shapeCast_self _ _
  have c6 : shapeCast S1x2048 v6 shapeCasts_S1x2048_S1x2048 = v6 := shapeCast_self _ _
  have c8 : shapeCast S1x2048 v8 shapeCasts_S1x2048_S1x2048 = v8 := shapeCast_self _ _
  show broadcastTo S1024x2048 (shapeCast S1x2048 v6 shapeCasts_S1x2048_S1x2048) broadcasts_S1x2048_S1024x2048 (ix2 p q)
        * (shapeCast S1024x2048 v0 shapeCasts_S1024x2048_S1024x2048 (ix2 p q)
            - broadcastTo S1024x2048 (shapeCast S1x2048 v2 shapeCasts_S1x2048_S1x2048) broadcasts_S1x2048_S1024x2048 (ix2 p q))
        * broadcastTo S1024x2048 (rsqrt (addf (shapeCast S1x2048 v4 shapeCasts_S1x2048_S1x2048)
            (broadcast S1x2048 (Scalar.ofBits (F := Ideal) .f32 0x3727C5AC#32)))) broadcasts_S1x2048_S1024x2048 (ix2 p q)
      + broadcastTo S1024x2048 (shapeCast S1x2048 v8 shapeCasts_S1x2048_S1x2048) broadcasts_S1x2048_S1024x2048 (ix2 p q) = _
  rw [c0, c2, c4, c6, c8, broadcastTo_1b_ab_apply v6, broadcastTo_1b_ab_apply v2, broadcastTo_1b_ab_apply v8,
    broadcastTo_1b_ab_apply (rsqrt (addf v4 (broadcast S1x2048 (Scalar.ofBits (F := Ideal) .f32 0x3727C5AC#32))))]
  rfl

/-- The same at any index of the block. -/
theorem pay1_idx (v0 : Vec Ideal S1024x2048 .f32) (v2 v4 v6 v8 : Vec Ideal S1x2048 .f32) (y : S1024x2048.Idx) :
    k1_pay1 (F := Ideal) v0 v2 v4 v6 v8 y
      = normed (v6 (ix2 (0 : Fin 1) (y 1))) (v0 y) (v2 (ix2 (0 : Fin 1) (y 1))) (v4 (ix2 (0 : Fin 1) (y 1))) (v8 (ix2 (0 : Fin 1) (y 1))) := by
  obtain ⟨p, q, rfl⟩ : ∃ (p : Fin 1024) (q : Fin 2048), y = ix2 p q := ⟨y 0, y 1, eq_ix2 y⟩
  exact pay1_at v0 v2 v4 v6 v8 p q

end Cert.WaveNorm.Kern

end
-- ==== Proof.Region1.lean ====
/-
  The second region, from the arrays it finds on entry. Its grid has 4 points; point t stages rows 1024·t … of y and the
  whole mean, variance, γ and β rows, and writes back rows 1024·t … of the result. What point t writes back is block
  t of ONE array — the entry-wise normalisation of the entry arrays — and the 4 blocks cover the result.
-/
import proofs.«149569_j44684839747976_1_alg».proof.Proof.Gen.KernelIdeal.Frame
import proofs.«149569_j44684839747976_1_alg».proof.Proof.Body1
import Idealize.ShloMosaic.Lib.Pipeline.Value

set_option maxRecDepth 16384

noncomputable section

namespace Cert.WaveNorm.Kern

open Cert.KernelIdeal Cert.KernelIdeal.Gen Cert.WaveNorm
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The index maps over the 4 grid points: y and the result move with the point along the rows; the four rows stay
    at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The array the region leaves in its result: each entry of y normalised by the mean, variance, γ and β rows at
    its column. -/
def Z1 (c : Dev nD) : S4096x2048.Idx → EReal := fun i =>
  normed ((V c main_v14 : S1x2048.Idx → EReal) (ix2 (0 : Fin 1) (i 1))) ((V c main_v2 : S4096x2048.Idx → EReal) i)
    ((V c main_v6 : S1x2048.Idx → EReal) (ix2 (0 : Fin 1) (i 1))) ((V c main_v13 : S1x2048.Idx → EReal) (ix2 (0 : Fin 1) (i 1)))
    ((V c main_v15 : S1x2048.Idx → EReal) (ix2 (0 : Fin 1) (i 1)))

/-- The block of y at point t, read where the result's block sits. -/
theorem blk1_y (c : Dev nD) (t : Fin cfg1.N) (y : S1024x2048.Idx) (i : S4096x2048.Idx)
    (h0 : (i 0).val = 1024 * t.val + (y 0).val) (h1 : (i 1).val = (y 1).val) :
    (iblk1 V c 0 t : Vec Ideal S1024x2048 .f32) y = (V c main_v2 : S4096x2048.Idx → EReal) i := by
  obtain ⟨e0, e1, -⟩ := idx_facts1 t
  unfold iblk1
  rw [View.read_apply]
  show V c main_v2 _ = V c main_v2 _
  refine congrArg (V c main_v2) ?_
  funext a
  apply Fin.ext
  match a with
  | ⟨0, _⟩ => show win1_0.index t 0 * 1024 + 1 * (y 0).val = (i 0).val; rw [e0, h0]; omega
  | ⟨1, _⟩ => show win1_0.index t 1 * 2048 + 1 * (y 1).val = (i 1).val; rw [e1, h1]; omega

/-- The mean row's block is the whole row. -/
theorem blk1_mean (c : Dev nD) (t : Fin cfg1.N) :
    (iblk1 V c 1 t : Vec Ideal S1x2048 .f32) = (V c main_v6 : S1x2048.Idx → EReal) := by
  obtain ⟨-, -, e0, e1, -⟩ := idx_facts1 t
  funext y
  unfold iblk1
  rw [View.read_apply]
  show V c main_v6 _ = V c main_v6 y
  refine congrArg (V c main_v6) ?_
  funext a
  apply Fin.ext
  match a with
  | ⟨0, _⟩ => show win1_1.index t 0 * 1 + 1 * (y 0).val = (y 0).val; rw [e0]; omega
  | ⟨1, _⟩ => show win1_1.index t 1 * 2048 + 1 * (y 1).val = (y 1).val; rw [e1]; omega

/-- The variance row's block is the whole row. -/
theorem blk1_var (c : Dev nD) (t : Fin cfg1.N) :
    (iblk1 V c 2 t : Vec Ideal S1x2048 .f32) = (V c main_v13 : S1x2048.Idx → EReal) := by
  obtain ⟨-, -, -, -, e0, e1, -⟩ := idx_facts1 t
  funext y
  unfold iblk1
  rw [View.read_apply]
  show V c main_v13 _ = V c main_v13 y
  refine congrArg (V c main_v13) ?_
  funext a
  apply Fin.ext
  match a with
  | ⟨0, _⟩ => show win1_2.index t 0 * 1 + 1 * (y 0).val = (y 0).val; rw [e0]; omega
  | ⟨1, _⟩ => show win1_2.index t 1 * 2048 + 1 * (y 1).val = (y 1).val; rw [e1]; omega

/-- The γ row's block is the whole row. -/
theorem blk1_g (c : Dev nD) (t : Fin cfg1.N) :
    (iblk1 V c 3 t : Vec Ideal S1x2048 .f32) = (V c main_v14 : S1x2048.Idx → EReal) := by
  obtain ⟨-, -, -, -, -, -, e0, e1, -⟩ := idx_facts1 t
  funext y
  unfold iblk1
  rw [View.read_apply]
  show V c main_v14 _ = V c main_v14 y
  refine congrArg (V c main_v14) ?_
  funext a
  apply Fin.ext
  match a with
  | ⟨0, _⟩ => show win1_3.index t 0 * 1 + 1 * (y 0).val = (y 0).val; rw [e0]; omega
  | ⟨1, _⟩ => show win1_3.index t 1 * 2048 + 1 * (y 1).val = (y 1).val; rw [e1]; omega

/-- The β row's block is the whole row. -/
theorem blk1_be (c : Dev nD) (t : Fin cfg1.N) :
    (iblk1 V c 4 t : Vec Ideal S1x2048 .f32) = (V c main_v15 : S1x2048.Idx → EReal) := by
  obtain ⟨-, -, -, -, -, -, -, -, e0, e1, -⟩ := idx_facts1 t
  funext y
  unfold iblk1
  rw [View.read_apply]
  show V c main_v15 _ = V c main_v15 y
  refine congrArg (V c main_v15) ?_
  funext a
  apply Fin.ext
  match a with
  | ⟨0, _⟩ => show win1_4.index t 0 * 1 + 1 * (y 0).val = (y 0).val; rw [e0]; omega
  | ⟨1, _⟩ => show win1_4.index t 1 * 2048 + 1 * (y 1).val = (y 1).val; rw [e1]; omega

/-- What point t writes back is block t of the normalised array. -/
theorem flushed1_eq (c : Dev nD) (t : Fin cfg1.N) :
    (dat1 V c).flushed 5 t = ((cfg1.win 5).blk t).view.read (Elt Ideal) (Z1 V c) := by
  obtain ⟨-, -, -, -, -, -, -, -, -, -, e0, e1⟩ := idx_facts1 t
  show (cfg1.win 5).cut (grid1.coords t) ((dat1 V c).after 5 t) = _
  rw [after1_5]
  unfold out1_5
  rw [View.canon_unit_zero hz1]
  simp only [View.ld_unit_zero (S := S1024x2048) hz1, View.ld_unit_zero (S := S1x2048) hz1]
  rw [blk1_mean V c t, blk1_var V c t, blk1_g V c t, blk1_be V c t]
  funext j
  rw [View.read_apply]
  show k1_pay1 (F := Ideal) (iblk1 V c 0 t) (V c main_v6) (V c main_v13) (V c main_v14) (V c main_v15) j
      = Z1 V c (((cfg1.win 5).blk t).view.emb j)
  refine (pay1_idx (iblk1 V c 0 t) (V c main_v6) (V c main_v13) (V c main_v14) (V c main_v15) j).trans ?_
  have hq : (((cfg1.win 5).blk t).view.emb j) 1 = j 1 :=
    Fin.ext (by show win1_5.index t 1 * 2048 + 1 * (j 1).val = (j 1).val; rw [e1]; omega)
  have hy : (iblk1 V c 0 t : Vec Ideal S1024x2048 .f32) j
      = (V c main_v2 : S4096x2048.Idx → EReal) (((cfg1.win 5).blk t).view.emb j) :=
    blk1_y V c t j _
      (by show win1_5.index t 0 * 1024 + 1 * (j 0).val = 1024 * t.val + (j 0).val; rw [e0]; omega)
      (by show win1_5.index t 1 * 2048 + 1 * (j 1).val = (j 1).val; rw [e1]; omega)
  rw [hy]
  unfold Z1
  dsimp only
  rw [hq]

/-- An index of the result is in point t's block iff each coordinate is in the block's range on its axis. -/
theorem mem_blk1 (t : Fin cfg1.N) (i : S4096x2048.Idx) :
    i ∈ ((cfg1.win 5).blk t).view.set ↔ ∀ a : Fin 2, win1_5.index t a * S1024x2048.size a ≤ (i a).val
      ∧ (i a).val < win1_5.index t a * S1024x2048.size a + S1024x2048.size a := by
  show i ∈ ((View.whole main_v16).slice (win1_5.rect t)).set ↔ _
  rw [View.set_slice_whole, Rect.mem_set_unit]
  exact Iff.rfl

/-- Every index of the result lies in the block of the point its row falls in. -/
theorem cover1 (i : S4096x2048.Idx) :
    ∃ t : Fin cfg1.N, (cfg1.win 5).flush t = true ∧ i ∈ ((cfg1.win 5).blk t).view.set := by
  have hi0 : (i 0).val < 4096 := (i 0).isLt
  have hi1 : (i 1).val < 2048 := (i 1).isLt
  have hN : cfg1.N = 4 := N_1
  let t : Fin cfg1.N := ⟨(i 0).val / 1024, by rw [hN]; omega⟩
  have ht : t.val = (i 0).val / 1024 := rfl
  obtain ⟨-, -, -, -, -, -, -, -, -, -, e0, e1⟩ := idx_facts1 t
  refine ⟨t, flush1_5 t, ?_⟩
  rw [mem_blk1]
  intro a
  match a with
  | ⟨0, _⟩ =>
    show win1_5.index t (0 : Fin 2) * 1024 ≤ (i 0).val ∧ (i 0).val < win1_5.index t (0 : Fin 2) * 1024 + 1024
    rw [e0, ht]; omega
  | ⟨1, _⟩ =>
    show win1_5.index t (1 : Fin 2) * 2048 ≤ (i 1).val ∧ (i 1).val < win1_5.index t (1 : Fin 2) * 2048 + 2048
    rw [e1]; omega

/-- After the region its result array is the normalised array of the entry arrays. -/
theorem final1 (c : Dev nD) : (dat1 V c).arrAt 5 cfg1.N = Z1 V c :=
  (dat1 V c).arrAt_eq_of_cover 5 (Z1 V c) (fun t _ => flushed1_eq V c t) (cover1)

end Cert.WaveNorm.Kern

end
-- ==== Proof.LibColReduce.lean ====
/-
  Reductions of an n x k array along its columns, read at a column given by its coordinate. The reduced index (c) with
  the outer coordinate s put back is the array index (s, c); so a sum over the first axis at c is the finite sum over s
  of the entries (s, c), for the vector unit's reduction and for the host's (after its initial value).
-/
import Idealize.ShloMosaic.PureOps.Ideal.Laws
import Idealize.ShloMosaic.PureOps.Reduce
import Idealize.ShloMosaic.Lib.ValueIdx

noncomputable section

open scoped BigOperators

namespace Idealize.ShloMosaic.ValueIdx

open Idealize.ShloMosaic

/-- Column c's reduced index with the outer coordinate s inserted is (s, c). -/
theorem lift_col {n k : ℕ} (h : (⟨2, ![n, k]⟩ : Shape).Reduces [0] (⟨1, ![k]⟩ : Shape)) (c : Fin k)
    (s : Fin ((⟨2, ![n, k]⟩ : Shape).size 0)) : h.lift (ix1 c) s = ix2 (⟨s.val, s.isLt⟩ : Fin n) c := by
  funext a; apply Fin.ext
  fin_cases a <;> rfl

/-- A vector-unit sum over the first axis, at column c: the sum of the column's entries. -/
theorem multiReduction_add_col {n k : ℕ} {φ : FTy} (src : FVec Ideal (⟨2, ![n, k]⟩ : Shape) φ) (acc : BitVec φ.bits)
    (h : (⟨2, ![n, k]⟩ : Shape).Reduces [0] (⟨1, ![k]⟩ : Shape)) (hφ : FKind.Formats φ) (hacc : acc = FKind.add.neutral φ hφ) (c : Fin k) :
    multiReduction .add [0] (⟨1, ![k]⟩ : Shape) src acc h hφ hacc (ix1 c) = ∑ s : Fin n, (src (ix2 s c) : EReal) :=
  (Ideal.multiReduction_add_single src acc h hφ hacc (ix1 c)).trans
    (Finset.sum_congr rfl fun s _ => congrArg src (lift_col h c s))

/-- The host's sum over the first axis, at column c: the initial value plus the sum of the column's entries. -/
theorem hostReduceAdd_col {n k : ℕ} (h' : (⟨2, ![n, k]⟩ : Shape).ReducesTo [0] (⟨1, ![k]⟩ : Shape))
    (h : (⟨2, ![n, k]⟩ : Shape).Reduces [0] (⟨1, ![k]⟩ : Shape)) (x : (⟨2, ![n, k]⟩ : Shape).Idx → EReal) (init : EReal) (c : Fin k) :
    Ideal.hostReduceAdd h' x init (ix1 c) = init + ∑ s : Fin n, x (ix2 s c) :=
  (Ideal.hostReduceAdd_single h' h x init (ix1 c)).trans
    (congrArg (init + ·) (Finset.sum_congr rfl fun s _ => congrArg x (lift_col h c s)))

end Idealize.ShloMosaic.ValueIdx

end
-- ==== Proof.LibBroadcastInDim.lean ====
/-
  The host's broadcast_in_dim in the five small forms a row-wise normalisation uses, each read at an index given by
  coordinates: a scalar to any shape; a vector of length a to an a x 1 column; an a x 1 column to a x b; a vector of
  length b to a 1 x b row; a 1 x b row to a x b. In each the result's entry is the operand's entry at the coordinates
  the broadcast keeps.
-/
import Idealize.ShloMosaic.Lib.Pipeline.Value
import Idealize.ShloMosaic.Lib.ValueIdx

namespace Idealize.ShloMosaic.ValueIdx

open Idealize.ShloMosaic

variable {α : Type}

/-- A scalar broadcast to any shape reads the scalar everywhere. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- A vector of length a placed as an a x 1 column reads, at (r, u), the vector at r. -/
theorem broadcastInDim_vec_col_apply {a : ℕ} (h : (⟨1, ![a]⟩ : Shape).BroadcastsInDim (⟨2, ![a, 1]⟩ : Shape) ![0])
    (x : (⟨1, ![a]⟩ : Shape).Idx → α) (r : Fin a) (u : Fin 1) :
    broadcastInDim (⟨2, ![a, 1]⟩ : Shape) ![0] h x (ix2 r u) = x (ix1 r) := by
  refine broadcastInDim_apply ![0] h x (ix2 r u) (ix1 r) fun ax => ?_
  match ax with
  | ⟨0, _⟩ =>
    show r.val = if a = 1 then 0 else r.val
    split
    · have := r.isLt; omega
    · rfl

/-- An a x 1 column broadcast to a x b reads, at (r, c), the column at (r, 0). -/
theorem broadcastInDim_col_mat_apply {a b : ℕ} (h : (⟨2, ![a, 1]⟩ : Shape).BroadcastsInDim (⟨2, ![a, b]⟩ : Shape) ![0, 1])
    (x : (⟨2, ![a, 1]⟩ : Shape).Idx → α) (r : Fin a) (c : Fin b) :
    broadcastInDim (⟨2, ![a, b]⟩ : Shape) ![0, 1] h x (ix2 r c) = x (ix2 r (0 : Fin 1)) := by
  refine broadcastInDim_apply ![0, 1] h x (ix2 r c) (ix2 r (0 : Fin 1)) fun ax => ?_
  match ax with
  | ⟨0, _⟩ =>
    show r.val = if a = 1 then 0 else r.val
    split
    · have := r.isLt; omega
    · rfl
  | ⟨1, _⟩ => rfl

/-- A vector of length b placed as a 1 x b row reads, at (u, c), the vector at c. -/
theorem broadcastInDim_vec_row_apply {b : ℕ} (h : (⟨1, ![b]⟩ : Shape).BroadcastsInDim (⟨2, ![1, b]⟩ : Shape) ![1])
    (x : (⟨1, ![b]⟩ : Shape).Idx → α) (u : Fin 1) (c : Fin b) :
    broadcastInDim (⟨2, ![1, b]⟩ : Shape) ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- A 1 x b row broadcast to a x b reads, at (r, c), the row at (0, c). -/
theorem broadcastInDim_row_mat_apply {a b : ℕ} (h : (⟨2, ![1, b]⟩ : Shape).BroadcastsInDim (⟨2, ![a, b]⟩ : Shape) ![0, 1])
    (x : (⟨2, ![1, b]⟩ : Shape).Idx → α) (r : Fin a) (c : Fin b) :
    broadcastInDim (⟨2, ![a, b]⟩ : Shape) ![0, 1] h x (ix2 r c) = x (ix2 (0 : Fin 1) c) := by
  refine broadcastInDim_apply ![0, 1] h x (ix2 r c) (ix2 (0 : Fin 1) c) fun ax => ?_
  match ax with
  | ⟨0, _⟩ => rfl
  | ⟨1, _⟩ =>
    show c.val = if b = 1 then 0 else c.val
    split
    · have := c.isLt; omega
    · rfl

end Idealize.ShloMosaic.ValueIdx
-- ==== Proof.KHost.lean ====
/-
  The host operations between the two regions, as functions of the array y they read: the row of column means
  (the column sums from the zero word, placed as a row, divided by 4096) and the row of column variances (the same of the
  squared deviations from the mean row broadcast down the batch). Read at column o they are the specification's column
  mean and variance of y.
-/
import proofs.«149569_j44684839747976_1_alg».proof.Proof.Gen.KernelIdeal
import proofs.«149569_j44684839747976_1_alg».proof.Proof.Spec
import proofs.«149569_j44684839747976_1_alg».proof.Proof.LibColReduce
import proofs.«149569_j44684839747976_1_alg».proof.Proof.LibBroadcastInDim
import Idealize.ShloMosaic.PureOps.Ideal.Laws

noncomputable section

open scoped BigOperators

namespace Cert.WaveNorm.Kern

open Cert.KernelIdeal Cert.KernelIdeal.Gen Cert.WaveNorm
open Idealize.ShloMosaic Idealize.ShloMosaic.ValueIdx

/-- The mean row the host computes from an array. -/
def meanRow (Y : S4096x2048.Idx → EReal) : S1x2048.Idx → EReal :=
  Host.divf (F := Ideal)
    (broadcastInDim S1x2048 ![1] bcast_S2048_S1x2048_1
      (Host.reduceAdd (F := Ideal) (φ := .f32) Y (constant (F := Ideal) S_ .f32 0x00000000#32) reducesTo_S4096x2048_S2048_d0 h_S_))
    (broadcastInDim S1x2048 ![] bcast_S_S1x2048 (constant (F := Ideal) S_ .f32 0x45800000#32))

/-- The variance row the host computes from an array. -/
def varRow (Y : S4096x2048.Idx → EReal) : S1x2048.Idx → EReal :=
  Host.divf (F := Ideal)
    (broadcastInDim S1x2048 ![1] bcast_S2048_S1x2048_1
      (Host.reduceAdd (F := Ideal) (φ := .f32)
        (mulf (F := Ideal) (φ := .f32) (subf (F := Ideal) (φ := .f32) Y (broadcastInDim S4096x2048 ![0, 1] bcast_S1x2048_S4096x2048_0_1 (meanRow Y)))
          (subf (F := Ideal) (φ := .f32) Y (broadcastInDim S4096x2048 ![0, 1] bcast_S1x2048_S4096x2048_0_1 (meanRow Y))))
        (constant (F := Ideal) S_ .f32 0x00000000#32) reducesTo_S4096x2048_S2048_d0 h_S_))
    (broadcastInDim S1x2048 ![] bcast_S_S1x2048 (constant (F := Ideal) S_ .f32 0x45800000#32))

/-- The mean row at column o is the column mean. -/
theorem meanRow_at (Y : S4096x2048.Idx → EReal) (o : Fin 2048) :
    meanRow Y (ix2 (0 : Fin 1) o) = meanOf Y o := by
  unfold meanRow
  show Ideal.div
      (broadcastInDim S1x2048 ![1] bcast_S2048_S1x2048_1
        (Host.reduceAdd (F := Ideal) (φ := .f32) Y (constant (F := Ideal) S_ .f32 0x00000000#32) reducesTo_S4096x2048_S2048_d0 h_S_) (ix2 (0 : Fin 1) o))
      (broadcastInDim S1x2048 ![] bcast_S_S1x2048 (constant (F := Ideal) S_ .f32 0x45800000#32) (ix2 (0 : Fin 1) o)) = _
  rw [broadcastInDim_vec_row_apply, broadcastInDim_scalar_apply]
  simp only [Host.reduceAdd, Ideal.hostReduceAdd_def]
  rw [hostReduceAdd_col reducesTo_S4096x2048_S2048_d0 (by decide)]
  rfl

/-- The variance row at column o is the column variance. -/
theorem varRow_at (Y : S4096x2048.Idx → EReal) (o : Fin 2048) :
    varRow Y (ix2 (0 : Fin 1) o) = varOf Y o := by
  have e : ∀ r : Fin 4096,
      (mulf (F := Ideal) (φ := .f32) (subf (F := Ideal) (φ := .f32) Y (broadcastInDim S4096x2048 ![0, 1] bcast_S1x2048_S4096x2048_0_1 (meanRow Y)))
          (subf (F := Ideal) (φ := .f32) Y (broadcastInDim S4096x2048 ![0, 1] bcast_S1x2048_S4096x2048_0_1 (meanRow Y)))) (ix2 r o)
        = (Y (ix2 r o) - meanOf Y o) * (Y (ix2 r o) - meanOf Y o) := fun r => by
    show (Y (ix2 r o) - broadcastInDim S4096x2048 ![0, 1] bcast_S1x2048_S4096x2048_0_1 (meanRow Y) (ix2 r o))
        * (Y (ix2 r o) - broadcastInDim S4096x2048 ![0, 1] bcast_S1x2048_S4096x2048_0_1 (meanRow Y) (ix2 r o)) = _
    rw [broadcastInDim_row_mat_apply, meanRow_at]
  unfold varRow
  show Ideal.div
      (broadcastInDim S1x2048 ![1] bcast_S2048_S1x2048_1
        (Host.reduceAdd (F := Ideal) (φ := .f32) _ (constant (F := Ideal) S_ .f32 0x00000000#32) reducesTo_S4096x2048_S2048_d0 h_S_) (ix2 (0 : Fin 1) o))
      (broadcastInDim S1x2048 ![] bcast_S_S1x2048 (constant (F := Ideal) S_ .f32 0x45800000#32) (ix2 (0 : Fin 1) o)) = _
  rw [broadcastInDim_vec_row_apply, broadcastInDim_scalar_apply]
  simp only [Host.reduceAdd, Ideal.hostReduceAdd_def]
  rw [hostReduceAdd_col reducesTo_S4096x2048_S2048_d0 (by decide)]
  simp only [e]
  rfl

end Cert.WaveNorm.Kern

end
-- ==== Proof.KValue.lean ====
/-
  The kernel program's result as one function of its arguments. Before the first region the host only rounds the two
  weight matrices (the identity on the extended reals), so the first region leaves y of the arguments in its result.
  Between the regions the host computes the mean and variance rows of that array and recasts γ and β as rows; the second
  region normalises y entry by entry with those rows. So the result buffer ends at the specification's result array.
-/
import proofs.«149569_j44684839747976_1_alg».proof.Proof.KRun
import proofs.«149569_j44684839747976_1_alg».proof.Proof.Region0
import proofs.«149569_j44684839747976_1_alg».proof.Proof.Region1
import proofs.«149569_j44684839747976_1_alg».proof.Proof.KHost
import Idealize.ShloMosaic.Lib.StableHlo.Run
import Idealize.ShloMosaic.Lib.ValueLayout

set_option maxRecDepth 16384

noncomputable section

namespace Cert.WaveNorm.Kern

open Cert.KernelIdeal Cert.KernelIdeal.Gen Cert.WaveNorm
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## Before the first region -/

theorem V1_arg0 (c : Dev nD) : V1 m ρ c main_arg0 = m ((c : Thread nD τ).loc main_arg0) := by
  show StableHlo.after hostOps0 (W0 m ρ c) (Proc.devRef .tc main_arg0) = _
  after_results

theorem V1_arg1 (c : Dev nD) : V1 m ρ c main_arg1 = m ((c : Thread nD τ).loc main_arg1) := by
  show StableHlo.after hostOps0 (W0 m ρ c) (Proc.devRef .tc main_arg1) = _
  after_results

theorem V1_arg2 (c : Dev nD) : V1 m ρ c main_arg2 = m ((c : Thread nD τ).loc main_arg2) := by
  show StableHlo.after hostOps0 (W0 m ρ c) (Proc.devRef .tc main_arg2) = _
  after_results

/-- The rounded first weight matrix is the matrix. -/
theorem V1_v0 (c : Dev nD) :
    (V1 m ρ c main_v0 : S2048x2048.Idx → EReal) = (m ((c : Thread nD τ).loc main_arg3) : S2048x2048.Idx → EReal) := by
  show StableHlo.after hostOps0 (W0 m ρ c) (Proc.devRef .tc main_v0) = _
  after_results
  rfl

/-- The rounded second weight matrix is the matrix. -/
theorem V1_v1 (c : Dev nD) :
    (V1 m ρ c main_v1 : S2048x2048.Idx → EReal) = (m ((c : Thread nD τ).loc main_arg4) : S2048x2048.Idx → EReal) := by
  show StableHlo.after hostOps0 (W0 m ρ c) (Proc.devRef .tc main_v1) = _
  after_results
  rfl

/-- y of the arguments. -/
abbrev yOf (c : Dev nD) : S4096x2048.Idx → EReal :=
  yArr (m ((c : Thread nD τ).loc main_arg0) : S4096x2048.Idx → EReal) (m ((c : Thread nD τ).loc main_arg1) : S1x2048.Idx → EReal)
    (m ((c : Thread nD τ).loc main_arg2) : S1x2048.Idx → EReal) (m ((c : Thread nD τ).loc main_arg3) : S2048x2048.Idx → EReal)
    (m ((c : Thread nD τ).loc main_arg4) : S2048x2048.Idx → EReal)

/-- After the first region its result array is y of the arguments. -/
theorem W2_v2 (c : Dev nD) : (W2 m ρ c (Proc.devRef .tc main_v2) : S4096x2048.Idx → EReal) = yOf m c := by
  refine (W2_arr m ρ c 5).trans ((final0 (V1 m ρ) c).trans ?_)
  unfold Y0
  rw [V1_arg0, V1_arg1, V1_arg2, V1_v0, V1_v1]

/-- γ is still as launched when the second stretch reads it. -/
theorem W2_arg5 (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)

/-- β is still as launched when the second stretch reads it. -/
theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)

/-! ## Between the regions -/

theorem V3_v2 (c : Dev nD) : (V3 m ρ c main_v2 : S4096x2048.Idx → EReal) = yOf m c := by
  refine Eq.trans ?_ (W2_v2 m ρ c)
  show StableHlo.after hostOps1 (W2 m ρ c) (Proc.devRef .tc main_v2) = _
  after_results

theorem V3_v6 (c : Dev nD) : (V3 m ρ c main_v6 : S1x2048.Idx → EReal) = meanRow (yOf m c) := by
  rw [← W2_v2 m ρ c]
  show StableHlo.after hostOps1 (W2 m ρ c) (Proc.devRef .tc main_v6) = _
  after_results
  rfl

theorem V3_v13 (c : Dev nD) : (V3 m ρ c main_v13 : S1x2048.Idx → EReal) = varRow (yOf m c) := by
  rw [← W2_v2 m ρ c]
  show StableHlo.after hostOps1 (W2 m ρ c) (Proc.devRef .tc main_v13) = _
  after_results
  rfl

/-- The γ row at column o is γ at o. -/
theorem V3_v14 (c : Dev nD) (o : Fin 2048) :
    (V3 m ρ c main_v14 : S1x2048.Idx → EReal) (ix2 (0 : Fin 1) o) = (m ((c : Thread nD τ).loc main_arg5) : S2048.Idx → EReal) (ix1 o) := by
  have h : (V3 m ρ c main_v14 : S1x2048.Idx → EReal)
      = shapeCast S1x2048 (W2 m ρ c (Proc.devRef .tc main_arg5) : S2048.Idx → EReal) shapeCasts_S2048_S1x2048 := by
    show StableHlo.after hostOps1 (W2 m ρ c) (Proc.devRef .tc main_v14) = _
    after_results
    rfl
  rw [h, shapeCast_a_1a_apply, W2_arg5]

/-- The β row at column o is β at o. -/
theorem V3_v15 (c : Dev nD) (o : Fin 2048) :
    (V3 m ρ c main_v15 : S1x2048.Idx → EReal) (ix2 (0 : Fin 1) o) = (m ((c : Thread nD τ).loc main_arg6) : S2048.Idx → EReal) (ix1 o) := by
  have h : (V3 m ρ c main_v15 : S1x2048.Idx → EReal)
      = shapeCast S1x2048 (W2 m ρ c (Proc.devRef .tc main_arg6) : S2048.Idx → EReal) shapeCasts_S2048_S1x2048 := by
    show StableHlo.after hostOps1 (W2 m ρ c) (Proc.devRef .tc main_v15) = _
    after_results
    rfl
  rw [h, shapeCast_a_1a_apply, W2_arg6]

/-! ## The result -/

/-- The last boundary's contents of the result buffer: the specification's result array of the arguments. -/
theorem W4_v16 (c : Dev nD) :
    (W4 m ρ c (Proc.devRef .tc main_v16) : S4096x2048.Idx → EReal)
      = outArr (m ((c : Thread nD τ).loc main_arg0) : S4096x2048.Idx → EReal) (m ((c : Thread nD τ).loc main_arg1) : S1x2048.Idx → EReal)
          (m ((c : Thread nD τ).loc main_arg2) : S1x2048.Idx → EReal) (m ((c : Thread nD τ).loc main_arg3) : S2048x2048.Idx → EReal)
          (m ((c : Thread nD τ).loc main_arg4) : S2048x2048.Idx → EReal) (m ((c : Thread nD τ).loc main_arg5) : S2048.Idx → EReal)
          (m ((c : Thread nD τ).loc main_arg6) : S2048.Idx → EReal) := by
  refine (W4_arr m ρ c 5).trans ((final1 (V3 m ρ) c).trans ?_)
  funext i
  obtain ⟨b, o, rfl⟩ : ∃ (b : Fin 4096) (o : Fin 2048), i = ix2 b o := ⟨i 0, i 1, eq_ix2 i⟩
  show normed ((V3 m ρ c main_v14 : S1x2048.Idx → EReal) (ix2 (0 : Fin 1) o)) ((V3 m ρ c main_v2 : S4096x2048.Idx → EReal) (ix2 b o))
      ((V3 m ρ c main_v6 : S1x2048.Idx → EReal) (ix2 (0 : Fin 1) o)) ((V3 m ρ c main_v13 : S1x2048.Idx → EReal) (ix2 (0 : Fin 1) o))
      ((V3 m ρ c main_v15 : S1x2048.Idx → EReal) (ix2 (0 : Fin 1) o)) = _
  rw [V3_v14, V3_v15, V3_v2, V3_v6, V3_v13, meanRow_at, varRow_at]
  rfl

/-- The kernel program's run, read: the result at the specification's result array, the arguments unchanged. -/
theorem run : θ_run defs (onTc (τ := τ) (main (F := Ideal))) ⟨m, fun _ => 0, ρ⟩ (fun r => ∀ c : Dev nD,
      r.2.mem ((c.tc : Thread nD τ).loc main_v16)
        = outArr (m ((c : Thread nD τ).loc main_arg0) : S4096x2048.Idx → EReal) (m ((c : Thread nD τ).loc main_arg1) : S1x2048.Idx → EReal)
          (m ((c : Thread nD τ).loc main_arg2) : S1x2048.Idx → EReal) (m ((c : Thread nD τ).loc main_arg3) : S2048x2048.Idx → EReal)
          (m ((c : Thread nD τ).loc main_arg4) : S2048x2048.Idx → EReal) (m ((c : Thread nD τ).loc main_arg5) : S2048.Idx → EReal)
          (m ((c : Thread nD τ).loc main_arg6) : S2048.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (W4_v16 m ρ c), (h c).2⟩) (run_named m ρ)

end Cert.WaveNorm.Kern

end
-- ==== Proof.RefValue.lean ====
/-
  The reference program, stage by stage, is the specification: its wavelet stage at (b,k) is the scalar wavelet of
  x(b,k), s(0,k), t(0,k); its two contractions against the rows of the weight matrices give y; its column sums
  divided by 4096 are the column mean and variance of y; its last stage is the normalised array.
-/
import proofs.«149569_j44684839747976_1_alg».proof.Proof.Gen.ReferenceIdeal.Read
import proofs.«149569_j44684839747976_1_alg».proof.Proof.Spec

noncomputable section

open scoped BigOperators

namespace Cert.WaveNorm.Ref

open Cert.ReferenceIdeal Cert.ReferenceIdeal.Read Cert.WaveNorm
open Idealize.ShloMosaic Idealize.ShloMosaic.ValueIdx

variable (x0 : (⟨S4096x2048, .f32⟩ : BufTy).Contents (Elt Ideal))
variable (x1 x2 : (⟨S1x2048, .f32⟩ : BufTy).Contents (Elt Ideal))
variable (x3 x4 : (⟨S2048x2048, .f32⟩ : BufTy).Contents (Elt Ideal))
variable (x5 x6 : (⟨S2048, .f32⟩ : BufTy).Contents (Elt Ideal))

/-- A row broadcast down the batch reads row 0 at the same column. -/
theorem row_of (b : Fin 4096) (k : Fin 2048) : idx_main_v0 (ix2 b k) = ix2 (0 : Fin 1) k :=
  funext fun a => Fin.ext (by match a with | ⟨0, _⟩ => rfl | ⟨1, _⟩ => rfl)

/-- A vector placed as a row reads the vector at the column. -/
theorem vec_of (k : Fin 2048) : idx_main_v24 (ix2 (0 : Fin 1) k) = ix1 k :=
  funext fun a => Fin.ext (by match a with | ⟨0, _⟩ => rfl)

/-- The reduced index o with the batch position r put back is (r, o). -/
theorem col_of (o : Fin 2048) (r : Fin 4096) : idx_main_v21 (ix1 o) r = ix2 r o :=
  funext fun a => Fin.ext (by match a with | ⟨0, _⟩ => rfl | ⟨1, _⟩ => rfl)

/-- The wavelet stage at (b,k). -/
theorem wave_at (b : Fin 4096) (k : Fin 2048) :
    val_main_v15 (F := Ideal) x0 x1 x2 (ix2 b k) = wavelet (x0 (ix2 b k)) (x1 (ix2 (0 : Fin 1) k)) (x2 (ix2 (0 : Fin 1) k)) := by
  simp only [val_main_v15_apply, val_main_v10_apply, val_main_v14_apply, val_main_v13_apply, val_main_v12_apply,
    val_main_v11_apply, val_main_v9_apply, val_main_v8_apply, val_main_v7_apply, val_main_v6_apply, val_main_v5_apply,
    val_main_v4_apply, val_main_v3_apply, val_main_v2_apply, val_main_v1_apply, val_main_v0_apply,
    val_main_cst_apply, val_main_cst_0_apply, val_main_cst_1_apply, val_main_cst_2_apply]
  have e0 : idx_main_v0 (ix2 b k) = ix2 (0 : Fin 1) k := row_of b k
  have e4 : idx_main_v4 (ix2 b k) = ix2 (0 : Fin 1) k := row_of b k
  rw [e0, e4]
  rfl

/-- The stage y at (b,o): the two contractions against rows o of the weight matrices, the second scaled. -/
theorem y_at (b : Fin 4096) (o : Fin 2048) :
    val_main_v20 (F := Ideal) x0 x1 x2 x3 x4 (ix2 b o) = yEntry x0 x1 x2 x3 x4 b o := by
  have el : ∀ k : Fin 2048, lidx_main_v16 (ix2 b o) k = ix2 b k := fun k =>
    funext fun a => Fin.ext (by match a with | ⟨0, _⟩ => rfl | ⟨1, _⟩ => rfl)
  have er : ∀ k : Fin 2048, ridx_main_v16 (ix2 b o) k = ix2 o k := fun k =>
    funext fun a => Fin.ext (by match a with | ⟨0, _⟩ => rfl | ⟨1, _⟩ => rfl)
  have el' : ∀ k : Fin 2048, lidx_main_v17 (ix2 b o) k = ix2 b k := el
  have er' : ∀ k : Fin 2048, ridx_main_v17 (ix2 b o) k = ix2 o k := er
  rw [val_main_v20_apply, val_main_v16_apply, val_main_v19_apply, val_main_v17_apply, val_main_v18_apply,
    val_main_cst_3_apply]
  simp only [el, er, el', er', wave_at]
  rfl

/-- The stage y is the specification's array. -/
theorem y_eq : val_main_v20 (F := Ideal) x0 x1 x2 x3 x4 = yArr x0 x1 x2 x3 x4 := by
  funext j
  obtain ⟨b, o, rfl⟩ : ∃ (b : Fin 4096) (o : Fin 2048), j = ix2 b o := ⟨j 0, j 1, eq_ix2 j⟩
  exact y_at x0 x1 x2 x3 x4 b o

/-- The mean stage at o is the column mean of the stage y. -/
theorem mean_at (o : Fin 2048) :
    val_main_v23 (F := Ideal) x0 x1 x2 x3 x4 (ix1 o) = meanOf (val_main_v20 (F := Ideal) x0 x1 x2 x3 x4) o := by
  rw [val_main_v23_apply, val_main_v21_apply, val_main_v22_apply, val_main_cst_5_apply, val_main_cst_4_apply]
  simp only [col_of]
  rfl

/-- The variance stage at o is the column variance of the stage y. -/
theorem var_at (o : Fin 2048) :
    val_main_v30 (F := Ideal) x0 x1 x2 x3 x4 (ix1 o) = varOf (val_main_v20 (F := Ideal) x0 x1 x2 x3 x4) o := by
  have ec : ∀ r : Fin 4096, idx_main_v28 (ix1 o) r = ix2 r o := col_of o
  have e25 : ∀ r : Fin 4096, idx_main_v25 (ix2 r o) = ix2 (0 : Fin 1) o := fun r => row_of r o
  rw [val_main_v30_apply, val_main_v28_apply, val_main_v29_apply, val_main_cst_7_apply, val_main_cst_6_apply]
  simp only [ec, val_main_v27_apply, val_main_v26_apply, val_main_v25_apply, val_main_v24_apply, e25, vec_of, mean_at]
  rfl

/-- The last stage at (b,o). -/
theorem out_at (b : Fin 4096) (o : Fin 2048) :
    val_main_v45 (F := Ideal) x0 x1 x2 x3 x4 x5 x6 (ix2 b o)
      = normed (x5 (ix1 o)) (val_main_v20 (F := Ideal) x0 x1 x2 x3 x4 (ix2 b o))
          (meanOf (val_main_v20 (F := Ideal) x0 x1 x2 x3 x4) o) (varOf (val_main_v20 (F := Ideal) x0 x1 x2 x3 x4) o) (x6 (ix1 o)) := by
  have e44 : idx_main_v44 (ix2 b o) = ix2 (0 : Fin 1) o := row_of b o
  have e41 : idx_main_v41 (ix2 b o) = ix2 (0 : Fin 1) o := row_of b o
  have e35 : idx_main_v35 (ix2 b o) = ix2 (0 : Fin 1) o := row_of b o
  have e32 : idx_main_v32 (ix2 b o) = ix2 (0 : Fin 1) o := row_of b o
  have e43 : idx_main_v43 (ix2 (0 : Fin 1) o) = ix1 o := vec_of o
  have e40 : idx_main_v40 (ix2 (0 : Fin 1) o) = ix1 o := vec_of o
  have e34 : idx_main_v34 (ix2 (0 : Fin 1) o) = ix1 o := vec_of o
  have e31 : idx_main_v31 (ix2 (0 : Fin 1) o) = ix1 o := vec_of o
  rw [val_main_v45_apply, val_main_v42_apply, val_main_v44_apply, e44, val_main_v43_apply, e43, val_main_v36_apply,
    val_main_v41_apply, e41, val_main_v40_apply, e40, val_main_v39_apply, val_main_v38_apply, val_main_v37_apply,
    val_main_cst_8_apply, val_main_v35_apply, e35, val_main_v34_apply, e34, val_main_v33_apply, val_main_v32_apply, e32,
    val_main_v31_apply, e31, mean_at, var_at]
  rfl

/-- The reference's result stage is the specification's result array. -/
theorem out_eq : val_main_v45 (F := Ideal) x0 x1 x2 x3 x4 x5 x6 = outArr x0 x1 x2 x3 x4 x5 x6 := by
  funext j
  obtain ⟨b, o, rfl⟩ : ∃ (b : Fin 4096) (o : Fin 2048), j = ix2 b o := ⟨j 0, j 1, eq_ix2 j⟩
  rw [out_at, y_eq]
  rfl

end Cert.WaveNorm.Ref

end
-- ==== Proof.lean ====
/-
  A wavelet layer followed by batch normalisation, computed two ways, gives the same array on the extended reals.

  With u(b,i) = (x(b,i) − t(i)) / max(s(i), 1e-3), both programs form
    y(b,o) = Σ_i c·cos(3u(b,i))·exp(−½·u(b,i)·u(b,i))·W(o,i) + 0.3·Σ_i x(b,i)·B(o,i),
  the column statistics mean(o) = (Σ_b y(b,o))/4096 and var(o) = (Σ_b (y(b,o) − mean(o))²)/4096, and the result
    γ(o)·(y(b,o) − mean(o))·rsqrt(var(o) + ε) + β(o).
  One program computes y by blocks of 256 batch rows, rounding the operands of its two matrix products to a shorter
  format first, takes the statistics on the whole array, and normalises by blocks of 1024 rows; the other works on whole
  arrays throughout. On the extended reals a rounding is the identity, a matrix product into zeros is the plain sum over
  the contracted position, and every other operation is applied entry by entry in the same order on both sides, so
  both results are the one array `Cert.WaveNorm.outArr` of the arguments. No law of arithmetic beyond reading each
  operation at an index is used, so the finiteness of the inputs is never needed.
-/
import proofs.«149569_j44684839747976_1_alg».proof.Defs
import proofs.«149569_j44684839747976_1_alg».proof.Proof.Gen.Kernel
import proofs.«149569_j44684839747976_1_alg».proof.Proof.Gen.Kernel.Skeleton
import proofs.«149569_j44684839747976_1_alg».proof.Proof.Gen.Kernel.Launch
import proofs.«149569_j44684839747976_1_alg».proof.Proof.Gen.Kernel.Points
import proofs.«149569_j44684839747976_1_alg».proof.Proof.Gen.Kernel.Frame
import proofs.«149569_j44684839747976_1_alg».proof.Proof.Gen.KernelIdeal
import proofs.«149569_j44684839747976_1_alg».proof.Proof.Gen.KernelIdeal.Skeleton
import proofs.«149569_j44684839747976_1_alg».proof.Proof.Gen.KernelIdeal.Launch
import proofs.«149569_j44684839747976_1_alg».proof.Proof.Gen.KernelIdeal.Points
import proofs.«149569_j44684839747976_1_alg».proof.Proof.Gen.KernelIdeal.Frame
import proofs.«149569_j44684839747976_1_alg».proof.Proof.Gen.ReferenceIdeal
import proofs.«149569_j44684839747976_1_alg».proof.Proof.Gen.Pre_finite_inputs
import proofs.«149569_j44684839747976_1_alg».proof.Proof.Gen.ReferenceIdeal.Run
import proofs.«149569_j44684839747976_1_alg».proof.Proof.Gen.ReferenceIdeal.Read
import proofs.«149569_j44684839747976_1_alg».proof.Proof.KValue
import proofs.«149569_j44684839747976_1_alg».proof.Proof.RefValue
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ => Cert.Kernel.Gen.frame m ρ

/-- So does the same program read on the extended reals. -/
theorem frame_ki : Cert.frame_KernelIdeal := fun m ρ _ => Cert.KernelIdeal.Gen.frame m ρ

/-- The whole-array program runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the word-level program and its reading on the extended reals. -/
theorem preserves : Cert.preserves_Kernel_KernelIdeal := trivial

/-- From memories that agree on the arguments both programs end with the result array `outArr` of the arguments. -/
theorem algebraic : Cert.algebraic_KernelIdeal_ReferenceIdeal := by
  intro m ρ m' ρ' _ hagree
  refine ⟨_, Cert.WaveNorm.Kern.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v45_eq, Cert.WaveNorm.Ref.out_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
